-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S512x512 : Shape := ⟨2, ![512, 512]⟩
abbrev S512 : Shape := ⟨1, ![512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8x4096x512 .f32) (main_arg1 : FVec F S512x512 .f32) (main_arg2 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8x4096x512 : Shape := ⟨3, ![8, 4096, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S32768x512 : Shape := ⟨2, ![32768, 512]⟩
abbrev S1024x512 : Shape := ⟨2, ![1024, 512]⟩

abbrev nBuf : Space → Nat
  | .hbm => 19
  | .vmem => 6
  | .smem => 0
  | _ => 0

abbrev bufTy : (tb : Table) → Fin (tcTables nBuf tb) → BufTy
  | .hbm, ⟨0, _⟩ => ⟨S8x4096x512, .f32⟩
  | .hbm, ⟨1, _⟩ => ⟨S512x512, .f32⟩
  | .hbm, ⟨2, _⟩ => ⟨S512, .f32⟩
  | .hbm, ⟨3, _⟩ => ⟨S512x512, .i32⟩
  | .hbm, ⟨4, _⟩ => ⟨S512x512, .i32⟩
  | .hbm, ⟨5, _⟩ => ⟨S_, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S512x512, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .bf16⟩
  | .hbm, ⟨15, _⟩ => ⟨S1x512, .f32⟩
  | .hbm, ⟨16, _⟩ => ⟨S32768x512, .f32⟩
  | .hbm, ⟨17, _⟩ => ⟨S32768x512, .f32⟩
  | .hbm, ⟨18, _⟩ => ⟨S8x4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512x512 : S_.BroadcastsInDim S512x512 (![] : Fin 0 → Fin S512x512.rank)
  bitsLt_bf16_f32 : FTy.bits .bf16 < FTy.bits .f32
  shapeCasts_S512_S1x512 : S512.ShapeCasts S1x512
  shapeCasts_S8x4096x512_S32768x512 : S8x4096x512.ShapeCasts S32768x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  natLt_1_32 : 1 < 32
  shapeCasts_S32768x512_S8x4096x512 : S32768x512.ShapeCasts S8x4096x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S32768x512.size a
  hwx0_3 : ∀ i : grid0.Coords, EltTy.bits .f32 = 32 ∨ (Rect.block (s := S32768x512) S1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v11) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S512x512 : Shape := ⟨2, ![512, 512]⟩
abbrev S512 : Shape := ⟨1, ![512]⟩
abbrev S_ : Shape := ⟨0, ![]⟩
abbrev S1x1x512 : Shape := ⟨3, ![1, 1, 512]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S512x512, .f32⟩
  | .hbm, ⟨2, _⟩ => ⟨S512, .f32⟩
  | .hbm, ⟨3, _⟩ => ⟨S512x512, .i32⟩
  | .hbm, ⟨4, _⟩ => ⟨S512x512, .i32⟩
  | .hbm, ⟨5, _⟩ => ⟨S_, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S512x512, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S8x4096x512, .f32⟩
  | .hbm, ⟨15, _⟩ => ⟨S1x1x512, .f32⟩
  | .hbm, ⟨16, _⟩ => ⟨S8x4096x512, .f32⟩
  | .hbm, ⟨17, _⟩ => ⟨S8x4096x512, .f32⟩
  | .hbm, ⟨18, _⟩ => ⟨S_, .f32⟩
  | .hbm, ⟨19, _⟩ => ⟨S8x4096x512, .f32⟩
  | .hbm, ⟨20, _⟩ => ⟨S8x4096x512, .i1⟩
  | .hbm, ⟨21, _⟩ => ⟨S8x4096x512, .f32⟩
  | .hbm, ⟨22, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  bcast_S_S8x4096x512 : S_.BroadcastsInDim S8x4096x512 (![] : Fin 0 → Fin S8x4096x512.rank)
  dot_S8x4096x512_S512x512_S8x4096x512_2_0_01_1_n_n_wf : DotDims.WF S8x4096x512 S512x512 S8x4096x512 [2] [0] [0, 1] [1] [] []

variable [Facts₀]

def dot_S8x4096x512_S512x512_S8x4096x512_2_0_01_1_n_n : DotDims S8x4096x512 S512x512 S8x4096x512 where
  lhsContracting := [2]
  rhsContracting := [0]
  lhsNonContracting := [0, 1]
  rhsNonContracting := [1]
  lhsBatch := []
  rhsBatch := []
  wf := dot_S8x4096x512_S512x512_S8x4096x512_2_0_01_1_n_n_wf

class Facts : Prop extends Facts₀ where

variable [Facts]
-- ==== Proof.Threshold.lean ====
/-
  The mathematics both programs compute, over the extended reals.

  A token row `x` (512 channels) is multiplied channel by channel with a 0/1 gate: channel `n` passes exactly when
  `Σ_k x k · W (k, n) + b n > 0`, where `W` is the weight matrix (its diagonal already removed by whoever supplies it).
  `gatedRows` states this for the tokens laid out as 32768 rows, `gated` for the same tokens as an 8 × 4096 batch, and
  `gated_flatten` says the two agree through the row-major flattening (row `r = a · 4096 + s`).

  The gate itself is the comparison's one-bit answer read as a number. One program reads the bit unsigned, the other widens
  it to 32 bits and reads that signed; `signed_widened_bit` says these are the same number (0 or 1).
-/
import Idealize.ShloMosaic.PureOps.Ideal
import Idealize.ShloMosaic.PureOps.Ideal.Laws
import Idealize.ShloMosaic.Lib.ValueIdx
import Idealize.ShloMosaic.Lib.Pipeline.Value

noncomputable section

namespace Cert.Inhibition

open Idealize.ShloMosaic Idealize.ShloMosaic.ValueIdx

abbrev Tokens : Shape := ⟨3, ![8, 4096, 512]⟩
abbrev Rows : Shape := ⟨2, ![32768, 512]⟩
abbrev Weights : Shape := ⟨2, ![512, 512]⟩
abbrev Bias : Shape := ⟨1, ![512]⟩
abbrev BiasRow : Shape := ⟨2, ![1, 512]⟩

/-- The hard threshold: `1` where `z > 0`, else `0` (the comparison's bit, read unsigned). -/
def step (z : EReal) : EReal := (((Ideal.cmp .ogt z (Ideal.ofBits .f32 0x00000000#32)).toNat : ℝ) : EReal)

/-- A single bit widened with zeros to 32 bits and read as a signed integer is the bit read unsigned. -/
theorem signed_widened_bit (b : BitVec 1) : ((((b.setWidth 32).toInt : ℤ) : ℝ) : EReal) = ((b.toNat : ℝ) : EReal) := by
  have h : (b.setWidth 32).toInt = (b.toNat : ℤ) := by
    rcases BitVec.eq_zero_or_eq_one b with h | h <;> subst h <;> decide
  rw [h, Int.cast_natCast]

/-- Row `r`, channel `n` of the gated rows: `X (r, n)` times the gate of `Σ_k X (r, k) · W (k, n) + B (0, n)`. -/
def gatedRows (X : Rows.Idx → EReal) (W : Weights.Idx → EReal) (B : BiasRow.Idx → EReal) : Rows.Idx → EReal :=
  fun i => X i * step ((∑ k : Fin 512, X (ix2 (i 0) k) * W (ix2 k (i 1))) + B (ix2 0 (i 1)))

/-- Token `(a, s)`, channel `n` of the gated batch: `x (a, s, n)` times the gate of `Σ_k x (a, s, k) · W (k, n) + b n`. -/
def gated (x : Tokens.Idx → EReal) (W : Weights.Idx → EReal) (b : Bias.Idx → EReal) : Tokens.Idx → EReal :=
  fun i => x i * step ((∑ k : Fin 512, x (ix3 (i 0) (i 1) k) * W (ix2 k (i 2))) + b (ix1 (i 2)))

/-- Flattening the batch to rows, gating the rows against the bias as a one-row matrix, and unflattening is gating the batch:
    row `a · 4096 + s` of the flattened tokens is token `(a, s)`, and the channel index is untouched. -/
theorem gated_flatten (x : Tokens.Idx → EReal) (W : Weights.Idx → EReal) (b : Bias.Idx → EReal)
    (hx : Tokens.ShapeCasts Rows) (hb : Bias.ShapeCasts BiasRow) (hy : Rows.ShapeCasts Tokens) :
    shapeCast Tokens (gatedRows (shapeCast Rows x hx) W (shapeCast BiasRow b hb)) hy = gated x W b := by
  funext i
  have h0 : (i 0).val < 8 := (i 0).isLt
  have h1 : (i 1).val < 4096 := (i 1).isLt
  have h2 : (i 2).val < 512 := (i 2).isLt
  -- the row of the flattened array that token `(i 0, i 1)` becomes
  let r : Fin 32768 := ⟨(i 0).val * 4096 + (i 1).val, by omega⟩
  have hcast : ∀ n : Fin 512, shapeCast Rows x hx (ix2 r n) = x (ix3 (i 0) (i 1) n) := fun n =>
    shapeCast_apply x hx (ix2 r n) (ix3 (i 0) (i 1) n) (by
      rw [Shape.rowMajor_val_three, Shape.rowMajor_val_two]
      show ((i 0).val * 4096 + (i 1).val) * 512 + n.val = ((i 0).val * 4096 + (i 1).val) * 512 + n.val
      rfl)
  have hbias : shapeCast BiasRow b hb (ix2 0 (i 2)) = b (ix1 (i 2)) :=
    shapeCast_apply b hb (ix2 0 (i 2)) (ix1 (i 2)) (by
      rw [Shape.rowMajor_val_one, Shape.rowMajor_val_two]
      show (i 2).val = 0 * 512 + (i 2).val
      omega)
  refine (shapeCast_apply _ hy i (ix2 r (i 2)) (by
      rw [Shape.rowMajor_val_two, Shape.rowMajor_val_three]
      show ((i 0).val * 4096 + (i 1).val) * 512 + (i 2).val = ((i 0).val * 4096 + (i 1).val) * 512 + (i 2).val
      rfl)).trans ?_
  show shapeCast Rows x hx (ix2 r (i 2)) * step ((∑ k : Fin 512, shapeCast Rows x hx (ix2 r k) * W (ix2 k (i 2))) + shapeCast BiasRow b hb (ix2 0 (i 2))) = _
  rw [hcast (i 2), hbias, Finset.sum_congr rfl (fun k _ => by rw [hcast k])]
  exact congrArg (fun z => z * step ((∑ k : Fin 512, x (ix3 (i 0) (i 1) k) * W (ix2 k (i 2))) + b (ix1 (i 2))))
    (congrArg x (eq_ix3 i).symm)

end Cert.Inhibition

end
-- ==== Proof.ReferenceSide.lean ====
/-
  The reference, read index by index, is the gated batch: its last stage multiplies the tokens by the comparison's bit read
  unsigned, the comparison is of `Σ_k x (a, s, k) · W (k, n) + b n` against zero, the sum is the host's contraction of the
  tokens' channel axis with the rows of the masked weights `W`, and the bias reaches index `(a, s, n)` through two
  broadcasts that keep only the channel coordinate. The masked weights stay the reference's own stage term, unopened.
-/
import proofs.«149982_j65223373357690_1_alg».proof.Proof.Gen.ReferenceIdeal.Read
import proofs.«149982_j65223373357690_1_alg».proof.Proof.Threshold

noncomputable section

namespace Cert.ReferenceIdeal.RefValue

open Cert.ReferenceIdeal Cert.ReferenceIdeal.Gen Cert.ReferenceIdeal.Read
open Idealize.ShloMosaic Idealize.ShloMosaic.ValueIdx Cert.Inhibition

/-- The reference's result stage is `gated` of the tokens, the reference's masked weights and the bias. -/
theorem result_eq (x0 : (⟨S8x4096x512, .f32⟩ : BufTy).Contents (Elt Ideal)) (x1 : (⟨S512x512, .f32⟩ : BufTy).Contents (Elt Ideal))
    (x2 : (⟨S512, .f32⟩ : BufTy).Contents (Elt Ideal)) :
    val_main_v16 (F := Ideal) x0 x1 x2 = gated x0 (val_main_v8 (F := Ideal) x1) x2 := by
  funext i
  -- the contraction reads the token's row of channels and column `i 2` of the weights; the bias only its channel
  have el : ∀ k : Fin 512, lidx_main_v9 i k = ix3 (i 0) (i 1) k := fun k => funext fun a => Fin.ext (by
    match a with
    | ⟨0, _⟩ => rfl
    | ⟨1, _⟩ => rfl
    | ⟨2, _⟩ => rfl)
  have er : ∀ k : Fin 512, ridx_main_v9 i k = ix2 k (i 2) := fun k => funext fun a => Fin.ext (by
    match a with
    | ⟨0, _⟩ => rfl
    | ⟨1, _⟩ => rfl)
  have eb : idx_main_v10 (idx_main_v11 i) = ix1 (i 2) := funext fun a => Fin.ext (by
    match a with
    | ⟨0, _⟩ => rfl)
  rw [val_main_v16_apply, val_main_v15_apply, val_main_v14_apply, val_main_v12_apply, val_main_v13_apply,
    val_main_cst_0_apply, val_main_v9_apply, val_main_v11_apply, val_main_v10_apply]
  simp only [el, er, eb]
  rfl

end Cert.ReferenceIdeal.RefValue

end
-- ==== Proof.BlockBody.lean ====
/-
  What the kernel body stores for one block of 1024 rows, read at row `p` and channel `q`.

  The body multiplies the block `x0` with the resident weight matrix `x1` into a zero accumulator, adds the bias row `x2`
  to every row, compares with zero, widens the comparison's bit to 32 bits, reads it as a signed integer, and multiplies
  the block by it. Over the extended reals the narrowing of the block to bf16 is the identity, the product at `(p, q)` is
  `Σ_k x0 (p, k) · x1 (k, q)`, and the widened bit is `step` of the compared value. So the stored entry is
  `x0 (p, q) · step (Σ_k x0 (p, k) · x1 (k, q) + x2 (0, q))` (`stored_apply`), and if the block is rows of a larger array
  it is that array's `gatedRows` entry (`stored_eq_gatedRows`).
-/
import proofs.«149982_j65223373357690_1_alg».proof.Proof.Gen.KernelIdeal.Skeleton
import proofs.«149982_j65223373357690_1_alg».proof.Proof.Threshold
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.ValueIdx Cert.Inhibition

/-- The product's left operand is read at the output's row, -/
theorem lhs_row (i : S1024x512.Idx) (κ : dot_S1024x512_S512x512_S1024x512_1_0_0_1_n_n.contr.Idx) :
    (dot_S1024x512_S512x512_S1024x512_1_0_0_1_n_n.lhsIdx i κ 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
/-- and at the contracted channel; -/
theorem lhs_chan (i : S1024x512.Idx) (κ : dot_S1024x512_S512x512_S1024x512_1_0_0_1_n_n.contr.Idx) :
    (dot_S1024x512_S512x512_S1024x512_1_0_0_1_n_n.lhsIdx i κ 1).val = (κ ⟨0, by decide⟩).val :=
  dot_S1024x512_S512x512_S1024x512_1_0_0_1_n_n.lhsIdx_val_of_single rfl i κ
/-- the right operand at the contracted channel -/
theorem rhs_chan (i : S1024x512.Idx) (κ : dot_S1024x512_S512x512_S1024x512_1_0_0_1_n_n.contr.Idx) :
    (dot_S1024x512_S512x512_S1024x512_1_0_0_1_n_n.rhsIdx i κ 0).val = (κ ⟨0, by decide⟩).val :=
  dot_S1024x512_S512x512_S1024x512_1_0_0_1_n_n.rhsIdx_val_of_single rfl i κ
/-- and at the output's column. -/
theorem rhs_col (i : S1024x512.Idx) (κ : dot_S1024x512_S512x512_S1024x512_1_0_0_1_n_n.contr.Idx) :
    (dot_S1024x512_S512x512_S1024x512_1_0_0_1_n_n.rhsIdx i κ 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The block product into a zero accumulator, at `(p, q)`: the sum over the contracted channel `k`. -/
theorem product_apply (a : FVec Ideal S1024x512 .bf16) (w : FVec Ideal S512x512 .bf16) (p : Fin 1024) (q : Fin 512) :
    matmul dot_S1024x512_S512x512_S1024x512_1_0_0_1_n_n none a w (constant S1024x512 .f32 0x00000000#32) (ix2 p q)
      = ∑ k : Fin 512, a (ix2 p k) * w (ix2 k q) := by
  show FloatOps.matmul dot_S1024x512_S512x512_S1024x512_1_0_0_1_n_n none a w (constant S1024x512 .f32 0x00000000#32) (ix2 p q) = _
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k :=
    funext fun d => Fin.ext (by
      match d with
      | ⟨0, _⟩ => exact lhs_row _ _
      | ⟨1, _⟩ => exact (lhs_chan _ _).trans hk)
  have er : dot_S1024x512_S512x512_S1024x512_1_0_0_1_n_n.rhsIdx (ix2 p q) ((contrEquiv1 dot_S1024x512_S512x512_S1024x512_1_0_0_1_n_n 512 rfl rfl).symm k) = ix2 k q :=
    funext fun d => Fin.ext (by
      match d with
      | ⟨0, _⟩ => exact (rhs_chan _ _).trans hk
      | ⟨1, _⟩ => exact rhs_col _ _)
  rw [el, er]

/-- The bias row broadcast down the block reads, at `(p, q)`, the row's entry `(0, q)`. -/
theorem bias_apply (v : FVec Ideal S1x512 .f32) (p : Fin 1024) (q : Fin 512) :
    broadcastTo S1024x512 v broadcasts_S1x512_S1024x512 (ix2 p q) = v (ix2 0 q) :=
  broadcastTo_apply v broadcasts_S1x512_S1024x512 (ix2 p q) (ix2 0 q) (fun d => by
    match d with
    | ⟨0, _⟩ => show 0 = if (1 : Nat) = 1 then 0 else _; rw [if_pos rfl]
    | ⟨1, _⟩ => show q.val = if (512 : Nat) = 1 then 0 else q.val; rw [if_neg (by decide)])

/-- The stored entry at row `p`, channel `q`. -/
theorem stored_apply (x0 : FVec Ideal S1024x512 .f32) (x1 : FVec Ideal S512x512 .bf16) (x2 : FVec Ideal S1x512 .f32)
    (p : Fin 1024) (q : Fin 512) :
    k0_pay1 (F := Ideal) x0 x1 x2 (ix2 p q) = x0 (ix2 p q) * step ((∑ k : Fin 512, x0 (ix2 p k) * x1 (ix2 k q)) + x2 (ix2 0 q)) := by
  unfold k0_pay1
  simp only [shapeCast_self]
  rw [mulf_apply, sitofp_apply, extui_apply, cmpf_apply, addf_apply, broadcast_apply, product_apply, bias_apply]
  simp only [truncf_apply]
  exact congrArg (x0 (ix2 p q) * ·) (signed_widened_bit _)

/-- If the block's row `p` is row `r` of an array `X`, and the resident operands are the arrays `W` and `B`, the stored
    entry is the array's gated entry at `(r, q)`. -/
theorem stored_eq_gatedRows (x0 : FVec Ideal S1024x512 .f32) (x1 : FVec Ideal S512x512 .bf16) (x2 : FVec Ideal S1x512 .f32)
    (X : Rows.Idx → EReal) (W : Weights.Idx → EReal) (B : BiasRow.Idx → EReal)
    (p : Fin 1024) (q : Fin 512) (r : Fin 32768)
    (h0 : ∀ k : Fin 512, x0 (ix2 p k) = X (ix2 r k)) (h1 : ∀ z, x1 z = W z) (h2 : ∀ z, x2 z = B z) :
    k0_pay1 (F := Ideal) x0 x1 x2 (ix2 p q) = gatedRows X W B (ix2 r q) := by
  rw [stored_apply, h0 q, h2, Finset.sum_congr rfl (fun k _ => by rw [h0 k, h1])]
  rfl

end Cert.KernelIdeal.Block

end
-- ==== Proof.KernelRows.lean ====
/-
  The kernel's whole result, from its blocks.

  Before the grid runs, the host lines flatten the tokens to 32768 rows, mask and narrow the weights, and turn the bias into
  a one-row matrix (`entry_tokens`, `entry_weights`, `entry_bias`). Grid point `t` stages rows `1024 t … 1024 t + 1023`
  of the flattened tokens, all of the weights and the bias row (`tokens_block`, `weights_block`, `bias_block`), and writes
  back rows `1024 t …` of the output. By the block lemma what it writes back is those rows of `gatedRows` of the three
  arrays (`flushed_eq`); the 32 row blocks cover the output (row `r` lies in block `r / 1024`), so the output array ends as
  `gatedRows` (`rows_final`). The one host line after the grid unflattens it, and `gated_flatten` turns the result into
  `gated` of the launch arguments (`result_final`, `run`).
-/
import proofs.«149982_j65223373357690_1_alg».proof.Proof.Gen.KernelIdeal.Frame
import proofs.«149982_j65223373357690_1_alg».proof.Proof.BlockBody
import Idealize.ShloMosaic.Lib.Pipeline.Value
import Idealize.ShloMosaic.Lib.StableHlo.Run
import Idealize.ShloMosaic.Lib.Tactic

set_option maxRecDepth 16384

noncomputable section

namespace Cert.KernelIdeal.Whole

open Cert.KernelIdeal Cert.KernelIdeal.Gen Cert.KernelIdeal.Block
open Idealize.ShloMosaic Idealize.ShloMosaic.TcCoe Idealize.SL.Sem Idealize.ShloMosaic.StableHlo
open Idealize.ShloMosaic.Pipeline (Dat)
open Idealize.ShloMosaic.ValueIdx Cert.Inhibition

variable (m : (ℓ : Loc nD τ sig) → Buf (Elt Ideal) ℓ) (ρ : Dev nD → PrngReg)

/-! ## The arrays the grid starts from -/

/-- The weights as the host lines before the grid leave them: each entry times one minus the indicator of the diagonal,
    then narrowed (the identity over the extended reals). Kept as the host's own term. -/
def maskedWeights (w : FVec Ideal S512x512 .f32) : FVec Ideal S512x512 .bf16 :=
  truncf .bf16 (mulf w (subf (broadcastInDim S512x512 ![] bcast_S_S512x512 (constant (F := Ideal) S_ .f32 0x3F800000#32))
    (uitofp .f32 (cmpi .eq (addi (iotaInDim S512x512 32 0) (broadcastInDim S512x512 ![] bcast_S_S512x512 (constantI S_ 32 0#32)))
      (iotaInDim S512x512 32 1))))) bitsLt_bf16_f32

theorem entry_tokens (c : Dev nD) :
    V m c main_v11 = shapeCast S32768x512 (m ((c : Thread nD τ).loc main_arg0)) shapeCasts_S8x4096x512_S32768x512 := by
  show StableHlo.after hostOps0 (fun b => m (c, b)) (Proc.devRef .tc main_v11) = _
  after_results
  rfl

theorem entry_weights (c : Dev nD) : V m c main_v9 = maskedWeights (m ((c : Thread nD τ).loc main_arg1)) := by
  show StableHlo.after hostOps0 (fun b => m (c, b)) (Proc.devRef .tc main_v9) = _
  after_results
  rfl

theorem entry_bias (c : Dev nD) :
    V m c main_v10 = shapeCast S1x512 (m ((c : Thread nD τ).loc main_arg2)) shapeCasts_S512_S1x512 := by
  show StableHlo.after hostOps0 (fun b => m (c, b)) (Proc.devRef .tc main_v10) = _
  after_results
  rfl

/-! ## The blocks at a grid point -/

theorem hz : (![0, 0] : Fin 2 → Nat) = fun _ => 0 := funext fun a => by fin_cases a <;> rfl

/-- The printed index maps over the 32 grid points: the token and output windows sit at block row `t`, the weights and the
    bias at their only block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s token block is row `1024 t + p` of the flattened tokens. -/
theorem tokens_block (c : Dev nD) (t : Fin cfg0.N) (p : Fin 1024) (k : Fin 512) (r : Fin 32768) (hr : r.val = t.val * 1024 + p.val) :
    (iblk m c 0 t : FVec Ideal S1024x512 .f32) (ix2 p k) = V m c main_v11 (ix2 r k) := by
  obtain ⟨e0, e1, -⟩ := idx_facts t
  show V m c main_v11 (((cfg0.win 0).blk t).view.emb (ix2 p k)) = V m c main_v11 (ix2 r k)
  have h : ((cfg0.win 0).blk t).view.emb (ix2 p k) = ix2 r k := funext fun a => Fin.ext (by
    match a with
    | ⟨0, _⟩ => show win0_0.index t (0 : Fin 2) * 1024 + 1 * p.val = r.val; rw [e0, hr]; omega
    | ⟨1, _⟩ => show win0_0.index t (1 : Fin 2) * 512 + 1 * k.val = k.val; rw [e1]; omega)
  rw [h]

/-- Every point's weight block is the whole masked weight matrix. -/
theorem weights_block (c : Dev nD) (t : Fin cfg0.N) (z : S512x512.Idx) :
    (iblk m c 1 t : FVec Ideal S512x512 .bf16) z = V m c main_v9 z := by
  obtain ⟨-, -, e2, e3, -⟩ := idx_facts t
  show V m c main_v9 (((cfg0.win 1).blk t).view.emb z) = V m c main_v9 z
  have h : ((cfg0.win 1).blk t).view.emb z = z := funext fun a => Fin.ext (by
    match a with
    | ⟨0, _⟩ => show win0_1.index t (0 : Fin 2) * 512 + 1 * (z 0).val = (z 0).val; rw [e2]; omega
    | ⟨1, _⟩ => show win0_1.index t (1 : Fin 2) * 512 + 1 * (z 1).val = (z 1).val; rw [e3]; omega)
  rw [h]

/-- Every point's bias block is the whole bias row. -/
theorem bias_block (c : Dev nD) (t : Fin cfg0.N) (z : S1x512.Idx) :
    (iblk m c 2 t : FVec Ideal S1x512 .f32) z = V m c main_v10 z := by
  obtain ⟨-, -, -, -, e4, e5, -⟩ := idx_facts t
  show V m c main_v10 (((cfg0.win 2).blk t).view.emb z) = V m c main_v10 z
  have h : ((cfg0.win 2).blk t).view.emb z = z := funext fun a => Fin.ext (by
    match a with
    | ⟨0, _⟩ => show win0_2.index t (0 : Fin 2) * 1 + 1 * (z 0).val = (z 0).val; rw [e4]; omega
    | ⟨1, _⟩ => show win0_2.index t (1 : Fin 2) * 512 + 1 * (z 1).val = (z 1).val; rw [e5]; omega)
  rw [h]

/-! ## What a point writes back, and the output array -/

/-- Point `t` writes back rows `1024 t … 1024 t + 1023` of `gatedRows` of the three arrays the grid started from. -/
theorem flushed_eq (c : Dev nD) (t : Fin cfg0.N) :
    (dats m 0 c).flushed 3 t
      = ((cfg0.win 3).blk t).view.read (Elt Ideal) (gatedRows (V m c main_v11) (V m c main_v9) (V m c main_v10)) := by
  show (cfg0.win 3).cut (grid0.coords t) ((dats m 0 c).after 3 t) = _
  rw [after0_3]
  unfold out0_3
  rw [View.canon_unit_zero hz]
  simp only [View.ld_unit_zero (S := S1024x512) hz, View.ld_unit_zero (S := S512x512) hz, View.ld_unit_zero (S := S1x512) hz]
  obtain ⟨-, -, -, -, -, -, e6, e7⟩ := idx_facts t
  have hN : t.val < 32 := Nat.lt_of_lt_of_eq t.isLt N_0
  funext j
  have hj0 : (j 0).val < 1024 := (j 0).isLt
  have hj1 : (j 1).val < 512 := (j 1).isLt
  show k0_pay1 (iblk m c 0 t) (iblk m c 1 t) (iblk m c 2 t) ((cfg0.win 3).xinj (grid0.coords t) j)
      = gatedRows (V m c main_v11) (V m c main_v9) (V m c main_v10) (((cfg0.win 3).blk t).view.emb j)
  have hy : (cfg0.win 3).xinj (grid0.coords t) j = ix2 (⟨(j 0).val, hj0⟩ : Fin 1024) (⟨(j 1).val, hj1⟩ : Fin 512) :=
    funext fun a => Fin.ext (by
      match a with
      | ⟨0, _⟩ => rfl
      | ⟨1, _⟩ => rfl)
  have hi : ((cfg0.win 3).blk t).view.emb j
      = ix2 (⟨t.val * 1024 + (j 0).val, by omega⟩ : Fin 32768) (⟨(j 1).val, hj1⟩ : Fin 512) :=
    funext fun a => Fin.ext (by
      match a with
      | ⟨0, _⟩ => show win0_3.index t (0 : Fin 2) * 1024 + 1 * (j 0).val = t.val * 1024 + (j 0).val; rw [e6]; omega
      | ⟨1, _⟩ => show win0_3.index t (1 : Fin 2) * 512 + 1 * (j 1).val = (j 1).val; rw [e7]; omega)
  rw [hy, hi]
  exact stored_eq_gatedRows (iblk m c 0 t) (iblk m c 1 t) (iblk m c 2 t) (V m c main_v11) (V m c main_v9) (V m c main_v10)
    ⟨(j 0).val, hj0⟩ ⟨(j 1).val, hj1⟩ ⟨t.val * 1024 + (j 0).val, by omega⟩
    (fun k => tokens_block m c t ⟨(j 0).val, hj0⟩ k ⟨t.val * 1024 + (j 0).val, by omega⟩ rfl)
    (fun z => weights_block m c t z) (fun z => bias_block m c t z)

/-- An index of the output array is in point `t`'s block iff each coordinate is in the block's range on its axis. -/
theorem mem_blk (t : Fin cfg0.N) (i : S32768x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v12).slice (win0_3.rect t)).set ↔ _
  rw [View.set_slice_whole, Rect.mem_set_unit]
  exact Iff.rfl

/-- Row `r` of the output lies in the block of point `r / 1024`, and every point writes its block back. -/
theorem cover (i : S32768x512.Idx) : ∃ t : Fin cfg0.N, (cfg0.win 3).flush t = true ∧ i ∈ ((cfg0.win 3).blk t).view.set := by
  have hi0 : (i 0).val < 32768 := (i 0).isLt
  have hi1 : (i 1).val < 512 := (i 1).isLt
  have hN : cfg0.N = 32 := N_0
  let t : Fin cfg0.N := ⟨(i 0).val / 1024, by rw [hN]; omega⟩
  obtain ⟨-, -, -, -, -, -, e6, e7⟩ := idx_facts t
  have ht : t.val = (i 0).val / 1024 := rfl
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 512 ≤ (i 1).val ∧ (i 1).val < win0_3.index t (1 : Fin 2) * 512 + 512
    rw [e7]; omega

/-- The output array after the grid: the gated rows of the arrays the grid started from. -/
theorem rows_final (c : Dev nD) :
    (dats m 0 c).arrAt 3 cfg0.N = gatedRows (V m c main_v11) (V m c main_v9) (V m c main_v10) :=
  (dats m 0 c).arrAt_eq_of_cover 3 (gatedRows (V m c main_v11) (V m c main_v9) (V m c main_v10))
    (fun t _ => flushed_eq m c t) cover

/-! ## The result -/

/-- The program's result buffer after the last host line: the output array unflattened — `gated` of the launch arguments,
    with the masked weights. -/
theorem result_final (c : Dev nD) :
    Pipeline.afterTail₀ cfgs (dats m) 0 (V0 m) [hostOps1] c main_v13
      = gated (m ((c : Thread nD τ).loc main_arg0)) (maskedWeights (m ((c : Thread nD τ).loc main_arg1)))
          (m ((c : Thread nD τ).loc main_arg2)) := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12)
      = gatedRows (V m c main_v11) (V m c main_v9) (V m c main_v10) :=
    (Pipeline.withArrays_arr spec0 launch0.win.arr_inj c _ _ 3).trans (rows_final m c)
  rw [hw, entry_tokens, entry_weights, entry_bias]
  exact gated_flatten _ _ _ _ _ _

/-- The kernel program's run, read: the result buffer ends at `gated` of the launch arguments (with the masked weights),
    and the arguments end as launched. -/
theorem run : θ_run defs (onTc (τ := τ) (main (F := Ideal))) ⟨m, fun _ => 0, ρ⟩ fun r => ∀ c : Dev nD,
      r.2.mem ((c.tc : Thread nD τ).loc main_v13)
        = gated (m ((c.tc : Thread nD τ).loc main_arg0)) (maskedWeights (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans (result_final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.lean ====
/-
  Lateral inhibition: every token row is multiplied, channel by channel, with a 0/1 gate that opens where the row's product
  with the off-diagonal weights plus the bias is positive.

  The kernel flattens the 8 × 4096 tokens to 32768 rows, masks and narrows the weights on the host, and computes 1024 rows per
  grid point; the reference contracts the batch with the same masked weights in one host product. Over the extended reals
  both end at `Cert.Inhibition.gated` of the tokens, the masked weights and the bias:
  * the kernel by `Cert.KernelIdeal.Whole.run` (blocks → rows → unflattened batch),
  * the reference by `Cert.ReferenceIdeal.RefValue.result_eq` over its stages read index by index,
  and the two programs' masked weights are the same host term (the kernel's extra narrowing is the identity here), so the two
  results are equal entry by entry. No finiteness of the inputs is used: the two sides are the same expression, and only
  the sum over the contracted channel is reindexed.

  The three frames: the two kernel programs' are the pipeline's frame run, the reference's is its host run with the result
  dropped. The idealization rewrote nothing, so there is nothing to preserve.
-/
import proofs.«149982_j65223373357690_1_alg».proof.Defs
import proofs.«149982_j65223373357690_1_alg».proof.Proof.Gen.Kernel
import proofs.«149982_j65223373357690_1_alg».proof.Proof.Gen.Kernel.Frame
import proofs.«149982_j65223373357690_1_alg».proof.Proof.Gen.KernelIdeal
import proofs.«149982_j65223373357690_1_alg».proof.Proof.Gen.KernelIdeal.Frame
import proofs.«149982_j65223373357690_1_alg».proof.Proof.Gen.ReferenceIdeal
import proofs.«149982_j65223373357690_1_alg».proof.Proof.Gen.ReferenceIdeal.Run
import proofs.«149982_j65223373357690_1_alg».proof.Proof.Gen.ReferenceIdeal.Read
import proofs.«149982_j65223373357690_1_alg».proof.Proof.Gen.Pre_finite_inputs
import proofs.«149982_j65223373357690_1_alg».proof.Proof.ReferenceSide
import proofs.«149982_j65223373357690_1_alg».proof.Proof.KernelRows
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The masked weights of the two programs are one function of the weight argument: the same host lines, and the kernel's
    narrowing to bf16 changes nothing over the extended reals. -/
theorem maskedWeights_eq (w : (⟨Cert.ReferenceIdeal.S512x512, .f32⟩ : BufTy).Contents (Elt Ideal)) :
    Cert.KernelIdeal.Whole.maskedWeights w = Cert.ReferenceIdeal.Read.val_main_v8 (F := Ideal) w := rfl

/-- Both runs end with the result at `gated` of the tokens, the masked weights and the bias, read off arguments that
    agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2.1,
    (hagree c).2.2, ← maskedWeights_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
